-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x500000 : Shape := ⟨2, ![2, 500000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x768 .f32) (main_arg1 : IVec S2x500000 32) (main_arg2 : IVec S50000 32) (main_arg3 : FVec F S768x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg3
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x768 : Shape := ⟨2, ![50000, 768]⟩
abbrev S2x500000 : Shape := ⟨2, ![2, 500000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000x128 : Shape := ⟨2, ![50000, 128]⟩
abbrev S2000x768 : Shape := ⟨2, ![2000, 768]⟩
abbrev S2000x128 : Shape := ⟨2, ![2000, 128]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x1 : Shape := ⟨2, ![50000, 1]⟩
abbrev S128x1 : Shape := ⟨2, ![128, 1]⟩
abbrev S1x2 : Shape := ⟨2, ![1, 2]⟩

abbrev nBuf : Space → Nat
  | .hbm => 99
  | .vmem => 11
  | .smem => 0
  | _ => 0

abbrev bufTy : (tb : Table) → Fin (tcTables nBuf tb) → BufTy
  | .hbm, ⟨0, _⟩ => ⟨S50000x768, .f32⟩
  | .hbm, ⟨1, _⟩ => ⟨S2x500000, .i32⟩
  | .hbm, ⟨2, _⟩ => ⟨S50000, .i32⟩
  | .hbm, ⟨3, _⟩ => ⟨S768x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S50000x128, .f32⟩
  | .hbm, ⟨10, _⟩ => ⟨S50000, .i32⟩
  | .hbm, ⟨11, _⟩ => ⟨S1x500000, .i32⟩
  | .hbm, ⟨12, _⟩ => ⟨S500000, .i32⟩
  | .hbm, ⟨13, _⟩ => ⟨S550000, .i32⟩
  | .hbm, ⟨14, _⟩ => ⟨S1x500000, .i32⟩
  | .hbm, ⟨15, _⟩ => ⟨S500000, .i32⟩
  | .hbm, ⟨16, _⟩ => ⟨S550000, .i32⟩
  | .hbm, ⟨17, _⟩ => ⟨S_, .f32⟩
  | .hbm, ⟨18, _⟩ => ⟨S50000, .f32⟩
  | .hbm, ⟨19, _⟩ => ⟨S_, .i32⟩
  | .hbm, ⟨20, _⟩ => ⟨S550000, .i32⟩
  | .hbm, ⟨21, _⟩ => ⟨S550000, .i1⟩
  | .hbm, ⟨22, _⟩ => ⟨S_, .i32⟩
  | .hbm, ⟨23, _⟩ => ⟨S550000, .i32⟩
  | .hbm, ⟨24, _⟩ => ⟨S550000, .i32⟩
  | .hbm, ⟨25, _⟩ => ⟨S550000, .i32⟩
  | .hbm, ⟨26, _⟩ => ⟨S550000x1, .i32⟩
  | .hbm, ⟨27, _⟩ => ⟨S_, .f32⟩
  | .hbm, ⟨28, _⟩ => ⟨S550000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S550000, .i32⟩
  | .hbm, ⟨43, _⟩ => ⟨S550000, .i1⟩
  | .hbm, ⟨44, _⟩ => ⟨S_, .i32⟩
  | .hbm, ⟨45, _⟩ => ⟨S550000, .i32⟩
  | .hbm, ⟨46, _⟩ => ⟨S550000, .i32⟩
  | .hbm, ⟨47, _⟩ => ⟨S550000, .i32⟩
  | .hbm, ⟨48, _⟩ => ⟨S550000x1, .i32⟩
  | .hbm, ⟨49, _⟩ => ⟨S550000, .f32⟩
  | .hbm, ⟨50, _⟩ => ⟨S_, .i32⟩
  | .hbm, ⟨51, _⟩ => ⟨S550000, .i32⟩
  | .hbm, ⟨52, _⟩ => ⟨S550000, .i1⟩
  | .hbm, ⟨53, _⟩ => ⟨S_, .i32⟩
  | .hbm, ⟨54, _⟩ => ⟨S550000, .i32⟩
  | .hbm, ⟨55, _⟩ => ⟨S550000, .i32⟩
  | .hbm, ⟨56, _⟩ => ⟨S550000, .i32⟩
  | .hbm, ⟨57, _⟩ => ⟨S550000x1, .i32⟩
  | .hbm, ⟨58, _⟩ => ⟨S550000, .f32⟩
  | .hbm, ⟨59, _⟩ => ⟨S550000, .f32⟩
  | .hbm, ⟨60, _⟩ => ⟨S_, .i32⟩
  | .hbm, ⟨61, _⟩ => ⟨S550000, .i32⟩
  | .hbm, ⟨62, _⟩ => ⟨S550000, .i1⟩
  | .hbm, ⟨63, _⟩ => ⟨S_, .i32⟩
  | .hbm, ⟨64, _⟩ => ⟨S550000, .i32⟩
  | .hbm, ⟨65, _⟩ => ⟨S550000, .i32⟩
  | .hbm, ⟨66, _⟩ => ⟨S550000, .i32⟩
  | .hbm, ⟨67, _⟩ => ⟨S550000x1, .i32⟩
  | .hbm, ⟨68, _⟩ => ⟨S550000x128, .f32⟩
  | .hbm, ⟨69, _⟩ => ⟨S550000x1, .f32⟩
  | .hbm, ⟨70, _⟩ => ⟨S550000x128, .f32⟩
  | .hbm, ⟨71, _⟩ => ⟨S550000x128, .f32⟩
  | .hbm, ⟨72, _⟩ => ⟨S_, .f32⟩
  | .hbm, ⟨73, _⟩ => ⟨S50000x128, .f32⟩
  | .hbm, ⟨74, _⟩ => ⟨S550000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128x128, .f32⟩
  | .hbm, ⟨84, _⟩ => ⟨S50000x1, .i32⟩
  | .hbm, ⟨85, _⟩ => ⟨S128x128, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S128, .f32⟩
  | .hbm, ⟨90, _⟩ => ⟨S50000x1, .i32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x128, .f32⟩
  | .hbm, ⟨97, _⟩ => ⟨S128x128, .f32⟩
  | .hbm, ⟨98, _⟩ => ⟨S128x2, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x128, .f32⟩
  | .local _ .vmem, ⟨4, _⟩ => ⟨S2000x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S128x2, .f32⟩
  | .local _ .vmem, ⟨9, _⟩ => ⟨S2, .f32⟩
  | .local _ .vmem, ⟨10, _⟩ => ⟨S128x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x128_S2000x128_0_0 : ∀ a, (![0, 0] : Fin 2 → Nat) a + S2000x128.size a ≤ S2000x128.size a
  h_S2000x128 : 0 < S2000x128.numel
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S50000 : S_.BroadcastsInDim S50000 (![] : Fin 0 → Fin S50000.rank)
  bcast_S_S550000 : S_.BroadcastsInDim S550000 (![] : Fin 0 → Fin S550000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S128x2 : S1x2.Broadcasts S128x2
  reduces_S128x2_S128 : S128x2.Reduces [1] S128
  shapeCasts_S128_S128x1 : S128.ShapeCasts S128x1
  broadcasts_S128x1_S128x2 : S128x1.Broadcasts S128x2
  dot_S2000x768_S768x128_S2000x128_1_0_0_1_n_n_wf : DotDims.WF S2000x768 S768x128 S2000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)

variable [Facts₀]

def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S128x2.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x500000 : Shape := ⟨2, ![2, 500000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x128 : Shape := ⟨2, ![50000, 128]⟩
abbrev S550000x128 : Shape := ⟨2, ![550000, 128]⟩
abbrev S1x128 : Shape := ⟨2, ![1, 128]⟩
abbrev S50000x1 : Shape := ⟨2, ![50000, 1]⟩
abbrev S128x1 : Shape := ⟨2, ![128, 1]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x500000, .i32⟩
  | .hbm, ⟨2, _⟩ => ⟨S50000, .i32⟩
  | .hbm, ⟨3, _⟩ => ⟨S768x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S50000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S1x500000, .i32⟩
  | .hbm, ⟨14, _⟩ => ⟨S500000, .i32⟩
  | .hbm, ⟨15, _⟩ => ⟨S550000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S550000, .i32⟩
  | .hbm, ⟨20, _⟩ => ⟨S550000, .i1⟩
  | .hbm, ⟨21, _⟩ => ⟨S_, .i32⟩
  | .hbm, ⟨22, _⟩ => ⟨S550000, .i32⟩
  | .hbm, ⟨23, _⟩ => ⟨S550000, .i32⟩
  | .hbm, ⟨24, _⟩ => ⟨S550000, .i32⟩
  | .hbm, ⟨25, _⟩ => ⟨S550000x1, .i32⟩
  | .hbm, ⟨26, _⟩ => ⟨S_, .f32⟩
  | .hbm, ⟨27, _⟩ => ⟨S550000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S550000, .i32⟩
  | .hbm, ⟨42, _⟩ => ⟨S550000, .i1⟩
  | .hbm, ⟨43, _⟩ => ⟨S_, .i32⟩
  | .hbm, ⟨44, _⟩ => ⟨S550000, .i32⟩
  | .hbm, ⟨45, _⟩ => ⟨S550000, .i32⟩
  | .hbm, ⟨46, _⟩ => ⟨S550000, .i32⟩
  | .hbm, ⟨47, _⟩ => ⟨S550000x1, .i32⟩
  | .hbm, ⟨48, _⟩ => ⟨S550000, .f32⟩
  | .hbm, ⟨49, _⟩ => ⟨S_, .i32⟩
  | .hbm, ⟨50, _⟩ => ⟨S550000, .i32⟩
  | .hbm, ⟨51, _⟩ => ⟨S550000, .i1⟩
  | .hbm, ⟨52, _⟩ => ⟨S_, .i32⟩
  | .hbm, ⟨53, _⟩ => ⟨S550000, .i32⟩
  | .hbm, ⟨54, _⟩ => ⟨S550000, .i32⟩
  | .hbm, ⟨55, _⟩ => ⟨S550000, .i32⟩
  | .hbm, ⟨56, _⟩ => ⟨S550000x1, .i32⟩
  | .hbm, ⟨57, _⟩ => ⟨S550000, .f32⟩
  | .hbm, ⟨58, _⟩ => ⟨S550000, .f32⟩
  | .hbm, ⟨59, _⟩ => ⟨S50000x128, .f32⟩
  | .hbm, ⟨60, _⟩ => ⟨S_, .i32⟩
  | .hbm, ⟨61, _⟩ => ⟨S550000, .i32⟩
  | .hbm, ⟨62, _⟩ => ⟨S550000, .i1⟩
  | .hbm, ⟨63, _⟩ => ⟨S_, .i32⟩
  | .hbm, ⟨64, _⟩ => ⟨S550000, .i32⟩
  | .hbm, ⟨65, _⟩ => ⟨S550000, .i32⟩
  | .hbm, ⟨66, _⟩ => ⟨S550000, .i32⟩
  | .hbm, ⟨67, _⟩ => ⟨S550000x1, .i32⟩
  | .hbm, ⟨68, _⟩ => ⟨S550000x128, .f32⟩
  | .hbm, ⟨69, _⟩ => ⟨S550000x1, .f32⟩
  | .hbm, ⟨70, _⟩ => ⟨S550000x128, .f32⟩
  | .hbm, ⟨71, _⟩ => ⟨S550000x128, .f32⟩
  | .hbm, ⟨72, _⟩ => ⟨S_, .f32⟩
  | .hbm, ⟨73, _⟩ => ⟨S50000x128, .f32⟩
  | .hbm, ⟨74, _⟩ => ⟨S550000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128x128, .f32⟩
  | .hbm, ⟨84, _⟩ => ⟨S50000x1, .i32⟩
  | .hbm, ⟨85, _⟩ => ⟨S128x128, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S128, .f32⟩
  | .hbm, ⟨90, _⟩ => ⟨S50000x1, .i32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x128, .f32⟩
  | .hbm, ⟨97, _⟩ => ⟨S128x128, .f32⟩
  | .hbm, ⟨98, _⟩ => ⟨S128x128, .f32⟩
  | .hbm, ⟨99, _⟩ => ⟨S1x128, .f32⟩
  | .hbm, ⟨100, _⟩ => ⟨S128x128, .f32⟩
  | .hbm, ⟨101, _⟩ => ⟨S128x128, .f32⟩
  | .hbm, ⟨102, _⟩ => ⟨S_, .f32⟩
  | .hbm, ⟨103, _⟩ => ⟨S128x128, .f32⟩
  | .hbm, ⟨104, _⟩ => ⟨S128x128, .f32⟩
  | .hbm, ⟨105, _⟩ => ⟨S128x2, .f32⟩
  | .hbm, ⟨106, _⟩ => ⟨S1x2, .f32⟩
  | .hbm, ⟨107, _⟩ => ⟨S128x2, .f32⟩
  | .hbm, ⟨108, _⟩ => ⟨S128x2, .f32⟩
  | .hbm, ⟨109, _⟩ => ⟨S_, .f32⟩
  | .hbm, ⟨110, _⟩ => ⟨S128, .f32⟩
  | .hbm, ⟨111, _⟩ => ⟨S_, .f32⟩
  | .hbm, ⟨112, _⟩ => ⟨S128, .f32⟩
  | .hbm, ⟨113, _⟩ => ⟨S128, .f32⟩
  | .hbm, ⟨114, _⟩ => ⟨S128x1, .f32⟩
  | .hbm, ⟨115, _⟩ => ⟨S128x2, .f32⟩
  | .hbm, ⟨116, _⟩ => ⟨S128x2, .f32⟩
  | .hbm, ⟨117, _⟩ => ⟨S128x2, .f32⟩
  | .hbm, ⟨118, _⟩ => ⟨S_, .f32⟩
  | .hbm, ⟨119, _⟩ => ⟨S128, .f32⟩
  | .hbm, ⟨120, _⟩ => ⟨S128x1, .f32⟩
  | .hbm, ⟨121, _⟩ => ⟨S128x1, .f32⟩
  | .hbm, ⟨122, _⟩ => ⟨S128x2, .f32⟩
  | .hbm, ⟨123, _⟩ => ⟨S128x2, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_cst : Ref sig .tc := ⟨.hbm, 102, rfl⟩
abbrev main_call2_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call3_cst : Ref sig .tc := ⟨.hbm, 109, rfl⟩
abbrev main_call3_v0 : Ref sig .tc := ⟨.hbm, 110, rfl⟩
abbrev main_call3_cst_0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_cst_1 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_v76 : Ref sig .tc := ⟨.hbm, 123, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S50000 : S_.BroadcastsInDim S50000 (![] : Fin 0 → Fin S50000.rank)
  bcast_S_S550000 : S_.BroadcastsInDim S550000 (![] : Fin 0 → Fin S550000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S128x1_S128x2_0_1 : S128x1.BroadcastsInDim S128x2 (![0, 1] : Fin 2 → Fin S128x2.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x768_S768x128_S50000x128_1_0_0_1_n_n_wf : DotDims.WF S50000x768 S768x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KernelRun.lean ====
/-
  The idealized kernel program's run, with every buffer's final contents named.

  @main is seven segments: the projection region, five stretches of host operations, the classifier region. The
  contents of the TensorCore's buffers at each boundary are a fold from the launch memory: a host stretch applies its
  operations, a region leaves its output arrays at what its write-backs add up to and every other buffer as it found
  it. Every weakly fair execution from a memory with zero counters terminates without a fault, and in the final state
  every unscoped buffer holds the LAST boundary's contents. In particular the result buffer holds the classifier
  region's output array, and each argument is as launched.
-/
import proofs.«142767_j1219770712147_1_alg».proof.Proof.Gen.KernelIdeal.Frame

noncomputable section

namespace Cert.Bridge.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this statement, which
-- takes unfolding plain definitions in a metavariable's type
set_option backward.isDefEq.respectTransparency.types false in
/-- Every weakly fair execution of @main terminates, nothing faulting, with every unscoped buffer of every core at
    the last segment boundary's contents. The launch theorem for a chain of regions and host stretches is applied to
    the seven segments; its last thread state is read against the final memory buffer by buffer. -/
theorem ends_at_last_boundary :
    θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the result named: the result buffer ends at the classifier region's output array as the last
    boundary holds it, and the nine arguments end as launched. -/
theorem run :
    θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨h c _ (mem_uc main_v67 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (ends_at_last_boundary m ρ)

end Cert.Bridge.KernelRun

end
-- ==== Proof.Stages.lean ====
/-
  Both programs compute, from node features x, an edge list, a graph id per node and five weight arrays:
    h      = x · W_gcn                                            (the feature projection, [50000, 128])
    pooled = mean over each graph's nodes of max(Â h + b_gcn, 0)  (one normalised graph-convolution layer,
             Â built from the edge list with self loops and symmetric degree scaling; [128, 128])
    result = log_softmax(max(pooled · W1 + b1, 0) · W2 + b2)      (the classifier head, [128, 2])
  The middle step is spelt identically in the two programs, so it is named here ONCE, as a function `pool`
  of the projected features `h`, and never opened: all that matters is that equal `h` give equal `pooled`.
  The last step is named as a function `head` of the pooled features. The reference's stages for
  `pooled` and for the result are these two functions applied to its own projection, by unfolding names.
-/
import proofs.«142767_j1219770712147_1_alg».proof.Proof.ReadP

noncomputable section

namespace Cert.Bridge

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The graph layer and the per-graph mean, as a function of the projected features `h`: gather the source row of
    every edge, scale it by the edge's normalisation, add it into the destination row, add the bias, take the
    positive part, add every node's row into its graph's row, divide by the graph's node count (at least one). -/
def pool (h : (⟨S50000x128, .f32⟩ : BufTy).Contents (Elt F)) (x1 : (⟨S2x500000, .i32⟩ : BufTy).Contents (Elt F))
    (x2 : (⟨S50000, .i32⟩ : BufTy).Contents (Elt F)) (x4 : (⟨S128, .f32⟩ : BufTy).Contents (Elt F)) : (⟨S128x128, .f32⟩ : BufTy).Contents (Elt F) :=
  Host.divf
    (Host.scatterAdd scatter_S128x128_S50000x1_S50000x128_1_0_0_1 (val_main_v55 (F := F)) (val_main_v56 (F := F) x2)
      (maximumf
        (addf
          (Host.scatterAdd scatter_S50000x128_S550000x1_S550000x128_1_0_0_1 (val_main_v48 (F := F)) (val_main_v49 (F := F) x1)
            (mulf (Host.gather gather_S50000x128_S550000x1_S550000x128_1_0_n_n_0_1_1128 h (val_main_v43 (F := F) x1))
              (val_main_v46 (F := F) x1)))
          (val_main_v52 (F := F) x4))
        (val_main_call1_v0 (F := F))))
    (val_main_v65 (F := F) x2)

/-- The reference's pooled features are `pool` of its projection `x · W_gcn`. -/
theorem stage_pooled (x0 : (⟨S50000x768, .f32⟩ : BufTy).Contents (Elt F)) (x1 : (⟨S2x500000, .i32⟩ : BufTy).Contents (Elt F))
    (x2 : (⟨S50000, .i32⟩ : BufTy).Contents (Elt F)) (x3 : (⟨S768x128, .f32⟩ : BufTy).Contents (Elt F)) (x4 : (⟨S128, .f32⟩ : BufTy).Contents (Elt F)) :
    val_main_v66 (F := F) x0 x1 x2 x3 x4 = pool (val_main_v37 (F := F) x0 x3) x1 x2 x4 := rfl

/-- The logits `max(p · W1 + b1, 0) · W2 + b2` of the pooled features `p`. -/
def logits (p : (⟨S128x128, .f32⟩ : BufTy).Contents (Elt F)) (x5 : (⟨S128x128, .f32⟩ : BufTy).Contents (Elt F)) (x6 : (⟨S128, .f32⟩ : BufTy).Contents (Elt F)) (x7 : (⟨S128x2, .f32⟩ : BufTy).Contents (Elt F)) (x8 : (⟨S2, .f32⟩ : BufTy).Contents (Elt F)) :
    (⟨S128x2, .f32⟩ : BufTy).Contents (Elt F) :=
  addf
    (Host.dotGeneral dot_S128x128_S128x2_S128x2_1_0_0_1_n_n none
      (maximumf
        (addf (Host.dotGeneral dot_S128x128_S128x128_S128x128_1_0_0_1_n_n none p x5) (val_main_v69 (F := F) x6))
        (val_main_call2_v0 (F := F)))
      x7)
    (val_main_v74 (F := F) x8)

/-- A row's entries minus the row's maximum (the maximum folded from −∞, then once more against −∞). -/
def shifted (z : (⟨S128x2, .f32⟩ : BufTy).Contents (Elt F)) : (⟨S128x2, .f32⟩ : BufTy).Contents (Elt F) :=
  subf z
    (broadcastInDim S128x2 ![0, 1] bcast_S128x1_S128x2_0_1
      (broadcastInDim S128x1 ![0] bcast_S128_S128x1_0
        (maximumf (val_main_call3_v1 (F := F))
          (Host.reduce FloatOps.maximumf z (val_main_call3_cst (F := F)) reducesTo_S128x2_S128_d1 h_S_))))

/-- The row log-softmax: the shifted entries minus the logarithm of the row sum of their exponentials. -/
def logSoftmax (z : (⟨S128x2, .f32⟩ : BufTy).Contents (Elt F)) : (⟨S128x2, .f32⟩ : BufTy).Contents (Elt F) :=
  subf (shifted z)
    (broadcastInDim S128x2 ![0, 1] bcast_S128x1_S128x2_0_1
      (Host.log
        (broadcastInDim S128x1 ![0] bcast_S128_S128x1_0
          (Host.reduceAdd (Host.exp (shifted z)) (val_main_call3_cst_1 (F := F)) reducesTo_S128x2_S128_d1 h_S_))))

/-- The classifier head as a function of the pooled features. -/
def head (p : (⟨S128x128, .f32⟩ : BufTy).Contents (Elt F)) (x5 : (⟨S128x128, .f32⟩ : BufTy).Contents (Elt F)) (x6 : (⟨S128, .f32⟩ : BufTy).Contents (Elt F)) (x7 : (⟨S128x2, .f32⟩ : BufTy).Contents (Elt F)) (x8 : (⟨S2, .f32⟩ : BufTy).Contents (Elt F)) :
    (⟨S128x2, .f32⟩ : BufTy).Contents (Elt F) :=
  logSoftmax (logits p x5 x6 x7 x8)

/-- The reference's result is `head` of its pooled features. -/
theorem stage_result (x0 : (⟨S50000x768, .f32⟩ : BufTy).Contents (Elt F)) (x1 : (⟨S2x500000, .i32⟩ : BufTy).Contents (Elt F))
    (x2 : (⟨S50000, .i32⟩ : BufTy).Contents (Elt F)) (x3 : (⟨S768x128, .f32⟩ : BufTy).Contents (Elt F)) (x4 : (⟨S128, .f32⟩ : BufTy).Contents (Elt F))
    (x5 : (⟨S128x128, .f32⟩ : BufTy).Contents (Elt F)) (x6 : (⟨S128, .f32⟩ : BufTy).Contents (Elt F)) (x7 : (⟨S128x2, .f32⟩ : BufTy).Contents (Elt F)) (x8 : (⟨S2, .f32⟩ : BufTy).Contents (Elt F)) :
    val_main_v76 (F := F) x0 x1 x2 x3 x4 x5 x6 x7 x8
      = head (val_main_v66 (F := F) x0 x1 x2 x3 x4) x5 x6 x7 x8 := rfl

end Cert.Bridge

end
-- ==== Proof.Glue.lean ====
/-
  What the two regions of the idealized kernel program find in the buffers they read.

  Between the projection region and the classifier region, @main runs host operations only, and they are the
  reference's own graph layer and per-graph mean applied to the projection region's OUTPUT array. So the pooled
  features the classifier region finds are `pool` of that array and of three arguments; the arguments themselves are
  never written, so every region and every host operation finds them as launched.
-/
import proofs.«142767_j1219770712147_1_alg».proof.Proof.Gen.KernelIdeal.Frame
import proofs.«142767_j1219770712147_1_alg».proof.Proof.Stages

noncomputable section

namespace Cert.Bridge.Glue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments, as each reader finds them -/

/-- The projection region is entered from the launch memory. -/
theorem entry0_arg0 (c : Dev nD) : V0 m ρ c main_arg0 = m ((c : Thread nD τ).loc main_arg0) := rfl
theorem entry0_arg3 (c : Dev nD) : V0 m ρ c main_arg3 = m ((c : Thread nD τ).loc main_arg3) := rfl

/-- The projection region writes only its output array: the edge list, the graph ids and the layer's bias leave it
    as launched. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg4 (c : Dev nD) : W1 m ρ c (Proc.devRef .tc main_arg4) = m ((c : Thread nD τ).loc main_arg4) :=
  W1_of_ne m ρ c main_arg4 (by decide)

/-- The classifier region reads each weight argument through an input window and writes only its output array, so what
    it FOUND in a weight argument is what that argument holds at the end, which is the launch contents. -/
theorem entry1_arg5 (c : Dev nD) : V6 m ρ c main_arg5 = m ((c : Thread nD τ).loc main_arg5) :=
  ((W7_arr m ρ c 1).trans (((dat1 (V6 m ρ) c).arrAt_in 1 rfl _).trans (A_eq1 (V6 m ρ) c 1))).symm.trans (W7_main_arg5 m ρ c)
theorem entry1_arg6 (c : Dev nD) : V6 m ρ c main_arg6 = m ((c : Thread nD τ).loc main_arg6) :=
  ((W7_arr m ρ c 2).trans (((dat1 (V6 m ρ) c).arrAt_in 2 rfl _).trans (A_eq1 (V6 m ρ) c 2))).symm.trans (W7_main_arg6 m ρ c)
theorem entry1_arg7 (c : Dev nD) : V6 m ρ c main_arg7 = m ((c : Thread nD τ).loc main_arg7) :=
  ((W7_arr m ρ c 3).trans (((dat1 (V6 m ρ) c).arrAt_in 3 rfl _).trans (A_eq1 (V6 m ρ) c 3))).symm.trans (W7_main_arg7 m ρ c)
theorem entry1_arg8 (c : Dev nD) : V6 m ρ c main_arg8 = m ((c : Thread nD τ).loc main_arg8) :=
  ((W7_arr m ρ c 4).trans (((dat1 (V6 m ρ) c).arrAt_in 4 rfl _).trans (A_eq1 (V6 m ρ) c 4))).symm.trans (W7_main_arg8 m ρ c)

/-! ## The pooled features at the classifier region's entry -/

set_option maxRecDepth 16384 in
set_option maxHeartbeats 40000000 in
/-- Folding the five host stretches over the projection region's exit contents leaves, in the buffer the classifier
    region reads its first operand from, `pool` of the projection's output array, the edge list, the graph ids and the
    bias — each read at the projection region's exit. -/
theorem pooled_at_entry1 (c : Dev nD) :
    V6 m ρ c main_v66
      = pool (F := F) (W1 m ρ c (Proc.devRef .tc main_v0)) (W1 m ρ c (Proc.devRef .tc main_arg1))
          (W1 m ρ c (Proc.devRef .tc main_arg2)) (W1 m ρ c (Proc.devRef .tc main_arg4)) := by
  show StableHlo.after hostOps1_4 (StableHlo.after hostOps1_3 (StableHlo.after hostOps1_2 (StableHlo.after hostOps1_1
    (StableHlo.after hostOps1 (W1 m ρ c))))) (Proc.devRef .tc main_v66) = _
  generalize W1 m ρ c = W
  dsimp only [hostOps1, hostOps1_1, hostOps1_2, hostOps1_3, hostOps1_4]
  after_results_simp
  rfl

end Cert.Bridge.Glue

end
-- ==== Proof.Projection.lean ====
/-
  The feature projection h = x · W, tile of rows by tile of rows, is the one matrix product.

  The first kernel region walks 25 grid points. At point t it holds rows 2000·t … 2000·t + 1999 of the node-feature
  array x (50000 × 768) and the whole weight array W (768 × 128), multiplies the row tile by W into a zero
  accumulator, and writes the 2000 × 128 product back as rows 2000·t … 2000·t + 1999 of the output (50000 × 128).
  The host program computes the same array with one product of x by W.

  Entry (p, q) of a tile's product is the sum over k < 768 of tile(p, k) · W(k, q), the accumulator contributing
  0 + s = s; narrowing the operands to the shorter float format is the identity on the extended reals. Tile t at
  (p, k) is x at (2000·t + p, k), so the stored entry is the sum over k of x(2000·t + p, k) · W(k, q): entry
  (2000·t + p, q) of the full product. Every row r lies in tile r / 2000, so the 25 write-backs fill the output, and
  the output array is the full product. No entry is asked to be finite: nothing cancels or distributes.
-/
import proofs.«142767_j1219770712147_1_alg».proof.Proof.Gen.KernelIdeal.Frame
import proofs.«142767_j1219770712147_1_alg».proof.Proof.ReadP
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One tile's product, entry by entry -/

/-- The body's accesses start at row 0, column 0 of their buffers. -/
theorem zeroOffsets : (![0, 0] : Fin 2 → Nat) = fun _ => 0 := funext fun a => by fin_cases a <;> rfl

/-- The tile product contracts the columns of the left operand against the rows of the right: the plain product of a
    2000 × 768 by a 768 × 128 matrix. -/
theorem tileDot_plain : dot_S2000x768_S768x128_S2000x128_1_0_0_1_n_n = DotDims.plain 2000 768 128 := rfl

/-- Entry (p, q) of what the body stores, for any row tile `xb` and weights `wb`: the sum over k of xb(p,k) · wb(k,q).
    The narrowing of both operands is the identity, and the zero accumulator adds nothing. -/
theorem rowTile_entry (xb : Vec Ideal S2000x768 .f32) (wb : Vec Ideal S768x128 .f32) (p : Fin 2000) (q : Fin 128) :
    k0_pay1 (F := Ideal) xb wb (ix2 p q) = ∑ k : Fin 768, xb (ix2 p k) * wb (ix2 k q) := by
  unfold k0_pay1
  show matmul (F := Ideal) dot_S2000x768_S768x128_S2000x128_1_0_0_1_n_n none (truncf (F := Ideal) .bf16 xb bitsLt_bf16_f32) (truncf (F := Ideal) .bf16 wb bitsLt_bf16_f32) (constant (F := Ideal) S2000x128 .f32 0x00000000#32) (ix2 p q) = _
  rw [matmul_zero_eq_dotGeneral, tileDot_plain, StackMember.dotGeneral_plain_apply]
  rfl

/-- If row p of the tile is row r of an array X, and the tile's weights are an array W, the stored entry (p, q) is
    entry (r, q) of any G whose entries are the sums over k of X(r,k) · W(k,q). -/
theorem rowTile_of_reads
    (X : S50000x768.Idx → EReal) (W : S768x128.Idx → EReal) (G : S50000x128.Idx → EReal)
    (hG : ∀ (r : Fin 50000) (q : Fin 128), G (ix2 r q) = ∑ k : Fin 768, X (ix2 r k) * W (ix2 k q))
    (xb : Vec Ideal S2000x768 .f32) (wb : Vec Ideal S768x128 .f32) (r : Fin 50000)
    (p : Fin 2000) (q : Fin 128)
    (hx : ∀ k : Fin 768, xb (ix2 p k) = X (ix2 r k))
    (hw : ∀ k : Fin 768, wb (ix2 k q) = W (ix2 k q)) :
    k0_pay1 (F := Ideal) xb wb (ix2 p q) = G (ix2 r q) := by
  rw [rowTile_entry, hG]
  exact Finset.sum_congr rfl fun k _ => by rw [hx, hw]

/-! ## Where each tile sits in its array -/

/-- The three index maps over the 25 grid points: the feature tile and the output tile at point t are block row t,
    block column 0; the weight tile is always block (0, 0). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- The node-feature array and the weight array as the region finds them, as functions of an index. -/
abbrev featArr : S50000x768.Idx → EReal := V c main_arg0
abbrev weightArr : S768x128.Idx → EReal := V c main_arg3

/-- The feature tile at point t, at (p, k), is the feature array at (2000·t + p, k). -/
theorem lhsTile_read (t : Fin cfg0.N) (p : Fin 2000) (k : Fin 768) (r : Fin 50000) (hr : r.val = 2000 * t.val + p.val) :
    (iblk0 V c 0 t : Vec Ideal S2000x768 .f32) (ix2 p k) = featArr V c (ix2 r k) := by
  obtain ⟨e00, e01, -⟩ := blockIndex_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e00, hr]; omega
  | ⟨1, _⟩ => show win0_0.index t (1 : Fin 2) * 768 + 1 * k.val = k.val; rw [e01]; omega

/-- The weight tile at any point is the whole weight array. -/
theorem rhsTile_read (t : Fin cfg0.N) (k : Fin 768) (q : Fin 128) :
    (iblk0 V c 1 t : Vec Ideal S768x128 .f32) (ix2 k q) = weightArr V c (ix2 k q) := by
  obtain ⟨-, -, e10, e11, -⟩ := blockIndex_facts t
  unfold iblk0
  rw [View.read_apply]
  show V c main_arg3 _ = V c main_arg3 _
  congr 1
  funext a
  apply Fin.ext
  match a with
  | ⟨0, _⟩ => show win0_1.index t (0 : Fin 2) * 768 + 1 * k.val = k.val; rw [e10]; omega
  | ⟨1, _⟩ => show win0_1.index t (1 : Fin 2) * 128 + 1 * q.val = q.val; rw [e11]; omega

/-- Entry (p, q) of the output tile at point t sits at (2000·t + p, q) of the output array. -/
theorem outTile_emb (t : Fin cfg0.N) (p : Fin 2000) (q : Fin 128) (r : Fin 50000) (hr : r.val = 2000 * t.val + p.val) :
    ((cfg0.win 2).blk t).view.emb (ix2 p q) = (ix2 r q : S50000x128.Idx) := by
  obtain ⟨-, -, -, -, e20, e21⟩ := blockIndex_facts t
  funext a
  apply Fin.ext
  match a with
  | ⟨0, _⟩ => show win0_2.index t (0 : Fin 2) * 2000 + 1 * p.val = r.val; rw [e20, hr]; omega
  | ⟨1, _⟩ => show win0_2.index t (1 : Fin 2) * 128 + 1 * q.val = q.val; rw [e21]; omega

/-! ## What each point writes back, and the array the write-backs fill -/

/-- What point t writes back is rows 2000·t … 2000·t + 1999 of G, for any G whose entries are the sums over k of
    x(r,k) · W(k,q) of the two input arrays. -/
theorem tile_flushed_eq (G : S50000x128.Idx → EReal)
    (hG : ∀ (r : Fin 50000) (q : Fin 128), G (ix2 r q)
      = ∑ k : Fin 768, featArr V c (ix2 r k) * weightArr V c (ix2 k q))
    (t : Fin cfg0.N) :
    (dat0 (F := Ideal) V c).flushed 2 t = ((cfg0.win 2).blk t).view.read (Elt Ideal) G := by
  have hN : grid0.N = 25 := N_0
  show (cfg0.win 2).cut (grid0.coords t) ((dat0 V c).after 2 t) = _
  rw [after0_2]
  unfold out0_2
  rw [View.canon_unit_zero zeroOffsets]
  simp only [View.ld_unit_zero (S := S2000x768) zeroOffsets, View.ld_unit_zero (S := S768x128) zeroOffsets]
  funext j
  obtain ⟨p, q, rfl⟩ : ∃ (p : Fin 2000) (q : Fin 128), j = ix2 p q := ⟨j 0, j 1, eq_ix2 j⟩
  have ht : t.val < 25 := hN ▸ t.isLt
  have hr : ((⟨2000 * t.val + p.val, by omega⟩ : Fin 50000)).val = 2000 * t.val + p.val := rfl
  show k0_pay1 (F := Ideal) (iblk0 V c 0 t) (iblk0 V c 1 t) (ix2 p q) = G (((cfg0.win 2).blk t).view.emb (ix2 p q))
  rw [outTile_emb t p q _ hr]
  exact rowTile_of_reads _ _ G hG _ _ _ p q (fun k => lhsTile_read V c t p k _ hr) (fun k => rhsTile_read V c t k q)

/-- An index of the output array is in point t's tile iff each coordinate is in the tile's range on its axis. -/
theorem mem_outTile (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the output lies in the tile of point r / 2000, which writes back: the 25 tiles fill the array. -/
theorem rows_covered (i : S50000x128.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 128 := (i 1).isLt
  let t : Fin cfg0.N := ⟨(i 0).val / 2000, by show (i 0).val / 2000 < grid0.N; rw [hN]; omega⟩
  obtain ⟨-, -, -, -, e20, e21⟩ := blockIndex_facts t
  have e20' : win0_2.index t (0 : Fin 2) = (i 0).val / 2000 := e20
  refine ⟨t, flush0_2 t, ?_⟩
  rw [mem_outTile]
  intro a
  match a with
  | ⟨0, _⟩ => show win0_2.index t (0 : Fin 2) * 2000 ≤ (i 0).val ∧ (i 0).val < win0_2.index t (0 : Fin 2) * 2000 + 2000; rw [e20']; omega
  | ⟨1, _⟩ => show win0_2.index t (1 : Fin 2) * 128 ≤ (i 1).val ∧ (i 1).val < win0_2.index t (1 : Fin 2) * 128 + 128; rw [e21]; omega

/-- The region's output array is any G whose entries are the sums over k of x(r,k) · W(k,q). -/
theorem projection_array_of (G : S50000x128.Idx → EReal)
    (hG : ∀ (r : Fin 50000) (q : Fin 128), G (ix2 r q)
      = ∑ k : Fin 768, featArr V c (ix2 r k) * weightArr V c (ix2 k q)) :
    (dat0 (F := Ideal) V c).arrAt 2 cfg0.N = G :=
  (dat0 (F := Ideal) V c).arrAt_eq_of_cover 2 G (fun t _ => tile_flushed_eq V c G hG t) rows_covered

/-! ## The host's product is that G -/

/-- Entry (r, q) of the host's product of x0 by x3 is the sum over k of x0(r,k) · x3(k,q). -/
theorem hostProduct_entry (x0 : (⟨Cert.ReferenceIdeal.S50000x768, .f32⟩ : BufTy).Contents (Elt Ideal))
    (x3 : (⟨Cert.ReferenceIdeal.S768x128, .f32⟩ : BufTy).Contents (Elt Ideal)) (r : Fin 50000) (q : Fin 128) :
    Cert.ReferenceIdeal.ReadP.val_main_v37 (F := Ideal) x0 x3 (ix2 r q) = ∑ k : Fin 768, x0 (ix2 r k) * x3 (ix2 k q) := by
  rw [Cert.ReferenceIdeal.ReadP.val_main_v37_apply]
  refine Finset.sum_congr rfl fun k _ => ?_
  have el : Cert.ReferenceIdeal.ReadP.lidx_main_v37 (ix2 r q) k = ix2 r k :=
    funext fun a => by match a with | ⟨0, _⟩ => rfl | ⟨1, _⟩ => rfl
  have er : Cert.ReferenceIdeal.ReadP.ridx_main_v37 (ix2 r q) k = ix2 k q :=
    funext fun a => by match a with | ⟨0, _⟩ => rfl | ⟨1, _⟩ => rfl
  rw [el, er]

/-- The first region's output array, for any contents at its entry, is the host's product of the node-feature array
    by the weight array. -/
theorem projection_array
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat0 (F := Ideal) V c).arrAt 2 Cert.KernelIdeal.cfg0.N
      = Cert.ReferenceIdeal.ReadP.val_main_v37 (F := Ideal) (V c Cert.KernelIdeal.main_arg0) (V c Cert.KernelIdeal.main_arg3) :=
  projection_array_of V c _ fun r q => hostProduct_entry _ _ r q

end Cert.Bridge

end
-- ==== Proof.LibSoftmax.lean ====
/-
  A row softmax read entry by entry on the extended reals.

  For a matrix L with M rows and K columns, the softmax along the rows subtracts each row's maximum, exponentiates,
  and divides by the row's sum of exponentials: entry (r, k) is exp(L(r,k) − max_j L(r,j)) / Σ_j exp(L(r,j) − max_j' L(r,j')).
  The maximum is the fold of max from −∞ over the row and the sum a finite sum over the row. A tiled kernel takes the
  maximum and the sum as lane reductions kept as columns [M, 1] and broadcast back along the rows; read at an entry this is
  the same expression. Nothing is cancelled or distributed, so the statements hold for every extended-real entry.
  Stated for any extents.
-/
import Idealize.ShloMosaic.Lib.ValueLayout
import Idealize.ShloMosaic.Lib.ValueIdx
import Idealize.ShloMosaic.Lib.Pipeline.Value
import Idealize.ShloMosaic.PureOps.Ideal.Laws

noncomputable section

namespace Cert.Softmax

open Idealize.ShloMosaic Idealize.ShloMosaic.ValueIdx
open scoped BigOperators

variable {M K : ℕ}

/-- The float word of −∞ read at the ideal values. -/
abbrev negInfWord : EReal := Ideal.ofBits .f32 0xFF800000#32

/-- The maximum of row r: the fold of max from −∞ over the row's entries. -/
def rowMax (L : (⟨2, ![M, K]⟩ : Shape).Idx → EReal) (r : Fin M) : EReal :=
  (Finset.univ : Finset (Fin K)).fold max negInfWord (fun k => L (ix2 r k))

/-- exp(L(r,k) − max of row r). -/
def expShift (L : (⟨2, ![M, K]⟩ : Shape).Idx → EReal) : (⟨2, ![M, K]⟩ : Shape).Idx → EReal :=
  fun i => Ideal.exp (L i - rowMax L (i 0))

/-- The row softmax: exp(L(r,k) − max) divided by the row's sum of those exponentials. -/
def softmax (L : (⟨2, ![M, K]⟩ : Shape).Idx → EReal) : (⟨2, ![M, K]⟩ : Shape).Idx → EReal :=
  fun i => Ideal.div (expShift L i) (∑ k : Fin K, expShift L (ix2 (i 0) k))

theorem softmax_apply (L : (⟨2, ![M, K]⟩ : Shape).Idx → EReal) (r : Fin M) (k : Fin K) :
    softmax L (ix2 r k) = Ideal.div (Ideal.exp (L (ix2 r k) - rowMax L r)) (∑ j : Fin K, Ideal.exp (L (ix2 r j) - rowMax L r)) := rfl

/-- The reduced index r of a row reduction with column k put back is (r, k). -/
theorem lift_row (h : (⟨2, ![M, K]⟩ : Shape).Reduces [1] (⟨1, ![M]⟩ : Shape)) (r : Fin M)
    (k : Fin ((⟨2, ![M, K]⟩ : Shape).size 1)) : h.lift (ix1 r) k = ix2 r (⟨k.val, k.isLt⟩ : Fin K) := by
  funext c; apply Fin.ext
  fin_cases c <;> rfl

/-- A vector over the rows cast to a column reads, at (r, u), the vector at r. -/
theorem column_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the rows' entries reads, at (r, k), the column at (r, 0). -/
theorem alongRow_apply {α : Type} (v : (⟨2, ![M, 1]⟩ : Shape).Idx → α)
    (h : (⟨2, ![M, 1]⟩ : Shape).Broadcasts ⟨2, ![M, K]⟩) (r : Fin M) (k : Fin K) :
    broadcastTo ⟨2, ![M, K]⟩ v h (ix2 r k) = v (ix2 r (0 : Fin 1)) := by
  refine broadcastTo_apply v h (ix2 r k) (ix2 r (0 : Fin 1)) fun ax => ?_
  match ax with
  | ⟨0, _⟩ =>
    show r.val = if M = 1 then 0 else r.val
    split
    · have := r.isLt; omega
    · rfl
  | ⟨1, _⟩ => rfl

/-- A lane maximum from −∞ over the columns, read at row r, is the row's maximum. -/
theorem laneMax_apply (P : FVec Ideal ⟨2, ![M, K]⟩ .f32) (h : (⟨2, ![M, K]⟩ : Shape).Reduces [1] (⟨1, ![M]⟩ : Shape))
    (hφ : FKind.Formats .f32) (hacc : (0xFF800000#32 : BitVec 32) = FKind.maximumf.neutral .f32 hφ) (r : Fin M) :
    multiReduction .maximumf [1] (⟨1, ![M]⟩ : Shape) P 0xFF800000#32 h hφ hacc (ix1 r) = rowMax P r := by
  refine (Ideal.multiReduction_maximumf_single P 0xFF800000#32 h hφ hacc (ix1 r)).trans ?_
  show (Finset.univ : Finset (Fin K)).fold max (Ideal.ofBits .f32 0xFF800000#32) (P ∘ h.lift (ix1 r)) = _
  unfold rowMax
  congr 1
  funext k
  exact congrArg P (lift_row h r k)

/-- A lane sum from zero over the columns, read at row r, is the sum over the row. -/
theorem laneSum_apply (E : FVec Ideal ⟨2, ![M, K]⟩ .f32) (h : (⟨2, ![M, K]⟩ : Shape).Reduces [1] (⟨1, ![M]⟩ : Shape))
    (hφ : FKind.Formats .f32) (hacc : (0x00000000#32 : BitVec 32) = FKind.add.neutral .f32 hφ) (r : Fin M) :
    multiReduction .add [1] (⟨1, ![M]⟩ : Shape) E 0x00000000#32 h hφ hacc (ix1 r) = ∑ k : Fin K, E (ix2 r k) := by
  refine (Ideal.multiReduction_add_single E 0x00000000#32 h hφ hacc (ix1 r)).trans ?_
  show ∑ k : Fin K, E (h.lift (ix1 r) k) = _
  exact Finset.sum_congr rfl fun k _ => congrArg E (lift_row h r k)

/-- The kernel's spelling on a block: lane maximum kept as a column and broadcast back, subtracted, exponentiated, lane sum
    kept as a column and broadcast back, divided. -/
theorem blockSoftmax_eq (P : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    divf (exp (subf P (broadcastTo ⟨2, ![M, K]⟩ (shapeCast ⟨2, ![M, 1]⟩
          (multiReduction .maximumf [1] (⟨1, ![M]⟩ : Shape) P 0xFF800000#32 h hφ hmax) hc) hb)))
        (broadcastTo ⟨2, ![M, K]⟩ (shapeCast ⟨2, ![M, 1]⟩
          (multiReduction .add [1] (⟨1, ![M]⟩ : Shape)
            (exp (subf P (broadcastTo ⟨2, ![M, K]⟩ (shapeCast ⟨2, ![M, 1]⟩
              (multiReduction .maximumf [1] (⟨1, ![M]⟩ : Shape) P 0xFF800000#32 h hφ hmax) hc) hb)))
            0x00000000#32 h hφ hadd) hc) hb)
      = softmax P := by
  have hE : ∀ (r : Fin M) (k : Fin K),
      (exp (subf P (broadcastTo ⟨2, ![M, K]⟩ (shapeCast ⟨2, ![M, 1]⟩
          (multiReduction .maximumf [1] (⟨1, ![M]⟩ : Shape) P 0xFF800000#32 h hφ hmax) hc) hb)) : FVec Ideal ⟨2, ![M, K]⟩ .f32) (ix2 r k)
        = Ideal.exp (P (ix2 r k) - rowMax P r) := by
    intro r k
    show Ideal.exp (P (ix2 r k) - broadcastTo ⟨2, ![M, K]⟩ (shapeCast ⟨2, ![M, 1]⟩
          (multiReduction .maximumf [1] (⟨1, ![M]⟩ : Shape) P 0xFF800000#32 h hφ hmax) hc) hb (ix2 r k)) = _
    rw [alongRow_apply, column_apply, laneMax_apply]
  funext i
  obtain ⟨r, k, rfl⟩ : ∃ (r : Fin M) (k : Fin K), i = ix2 r k := ⟨i 0, i 1, eq_ix2 i⟩
  rw [divf_apply, alongRow_apply, column_apply, laneSum_apply, softmax_apply, hE r k]
  congr 1
  exact Finset.sum_congr rfl fun j _ => hE r j

end Cert.Softmax

end
-- ==== Proof.LibHostSoftmax.lean ====
/-
  The host's spelling of a row maximum, read entry by entry on the extended reals.

  A host program takes a row maximum as a reduction with a maximum body from the initial value −∞. Read at row r it is the
  fold of max from −∞ over the row's entries, the same row maximum a lane reduction gives. A further maximum with −∞ changes
  nothing. Stated for any extents.
-/
import Idealize.ShloMosaic.PureOps.Reduce
import proofs.«142767_j1219770712147_1_alg».proof.Proof.LibSoftmax

noncomputable section

namespace Cert.Softmax

open Idealize.ShloMosaic Idealize.ShloMosaic.ValueIdx

variable {M K : ℕ}

/-- The host's reduction with a maximum body from −∞ over the columns, read at row r, is the row's maximum. -/
theorem hostRowMax_apply (L : FVec Ideal ⟨2, ![M, K]⟩ .f32) (h' : (⟨2, ![M, K]⟩ : Shape).ReducesTo [1] (⟨1, ![M]⟩ : Shape))
    (h : (⟨2, ![M, K]⟩ : Shape).Reduces [1] (⟨1, ![M]⟩ : Shape)) (hu : 0 < (⟨0, ![]⟩ : Shape).numel) (r : Fin M) :
    Host.reduce FloatOps.maximumf L (constant (⟨0, ![]⟩ : Shape) .f32 0xFF800000#32) h' hu (ix1 r) = rowMax L r := by
  rw [Host.reduce_eq_fold_single FloatOps.maximumf L _ h' h hu]
  unfold rowMax
  show (Finset.univ : Finset (Fin K)).fold max (Ideal.ofBits .f32 0xFF800000#32) (L ∘ h.lift (ix1 r)) = _
  refine congrArg (fun f => Finset.fold max (Ideal.ofBits .f32 0xFF800000#32) f (Finset.univ : Finset (Fin K))) ?_
  funext k
  exact congrArg L (lift_row h r k)

/-- The maximum with −∞ is the other operand. -/
theorem max_negInf (y : EReal) : max (Ideal.ofBits .f32 0xFF800000#32) y = y := by
  simp [Ideal.ofBits, Ideal.ieee]

/-- The same in the float operations' spelling of the maximum. -/
theorem maximumf_negInf (y : Ideal .f32) :
    FloatOps.maximumf (F := Ideal) (FloatOps.ofBits (F := Ideal) .f32 0xFF800000#32) y = y := max_negInf y

end Cert.Softmax

end
-- ==== Proof.LibLogSoftmax.lean ====
/-
  The row log-softmax of a matrix, in a kernel's spelling and in a host program's, is one array.

  For an M × K matrix z the row log-softmax at (r, k) is s(r, k) − log Σ_j exp s(r, j), where s(r, k) = z(r, k) − m(r)
  and m(r) = max(−∞, max_j z(r, j)). A kernel writes the row maximum as a lane reduction from −∞ followed by one more
  maximum against a −∞ splat, keeps it as a column by a cast, and broadcasts the column along the rows; it writes the
  row sum as a lane reduction from zero, casts it to a column, takes the logarithm there and broadcasts. A host
  program writes the maximum as a reduction with a maximum body from −∞ and the same further maximum, the sum as a sum
  from the initial value zero, and each column as two broadcasts (to a column, then along the rows). Entry by entry
  the two read the same values, so the arrays are equal; the accumulators contribute max(−∞, y) = y and 0 + s = s and
  nothing is cancelled or distributed, so the equality holds at the infinities too. Also here: a vector laid along
  every row of a matrix, which a kernel writes as a cast to one row broadcast down the rows and a host program as two
  broadcasts. Stated for any extents.
-/
import proofs.«142767_j1219770712147_1_alg».proof.Proof.LibHostSoftmax
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LogSoftmax

open Idealize.ShloMosaic Idealize.ShloMosaic.ValueIdx Idealize.ShloMosaic.TcCoe Idealize.SL.Sem
open scoped BigOperators

/-! ## Layout operations of the two spellings, read at an entry -/

section Layout
variable {M K : ℕ} {α : Type}

/-- The host's cast of a vector over the rows to a column reads, at (r, u), the vector at r. -/
theorem hostColumn_apply (x : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h x (ix2 r u) = x (ix1 r) := by
  refine broadcastInDim_apply ![0] h x (ix2 r u) (ix1 r) fun a => ?_
  match a with
  | ⟨0, _⟩ =>
    show r.val = if M = 1 then 0 else r.val
    split
    · have := r.isLt; omega
    · rfl

/-- The host's broadcast of a column along the rows' entries reads, at (r, k), the column at (r, 0). -/
theorem hostAlongRow_apply (v : (⟨2, ![M, 1]⟩ : Shape).Idx → α)
    (h : (⟨2, ![M, 1]⟩ : Shape).BroadcastsInDim ⟨2, ![M, K]⟩ ![0, 1]) (r : Fin M) (k : Fin K) :
    broadcastInDim ⟨2, ![M, K]⟩ ![0, 1] h v (ix2 r k) = v (ix2 r (0 : Fin 1)) := by
  refine broadcastInDim_apply ![0, 1] h v (ix2 r k) (ix2 r (0 : Fin 1)) fun a => ?_
  match a with
  | ⟨0, _⟩ =>
    show r.val = if M = 1 then 0 else r.val
    split
    · have := r.isLt; omega
    · rfl
  | ⟨1, _⟩ => rfl

/-- The host's spelling of a vector laid along every row — first as a one-row matrix, then down the rows — reads, at
    (r, k), the vector at k. -/
theorem hostRows_apply (x : (⟨1, ![K]⟩ : Shape).Idx → α)
    (g1 : (⟨1, ![K]⟩ : Shape).BroadcastsInDim ⟨2, ![1, K]⟩ ![1])
    (g2 : (⟨2, ![1, K]⟩ : Shape).BroadcastsInDim ⟨2, ![M, K]⟩ ![0, 1]) (r : Fin M) (k : Fin K) :
    broadcastInDim ⟨2, ![M, K]⟩ ![0, 1] g2 (broadcastInDim ⟨2, ![1, K]⟩ ![1] g1 x) (ix2 r k) = x (ix1 k) := by
  rw [broadcastInDim_oneRow_apply]
  refine broadcastInDim_apply ![1] g1 x (ix2 (0 : Fin 1) k) (ix1 k) fun a => ?_
  match a with
  | ⟨0, _⟩ =>
    show k.val = if K = 1 then 0 else k.val
    split
    · have := k.isLt; omega
    · rfl

/-- The kernel's spelling of the same — the vector cast to one row and broadcast down the rows — reads the same. -/
theorem kernelRows_apply (x : (⟨1, ![K]⟩ : Shape).Idx → α)
    (h1 : (⟨1, ![K]⟩ : Shape).ShapeCasts ⟨2, ![1, K]⟩)
    (h2 : (⟨2, ![1, K]⟩ : Shape).Broadcasts ⟨2, ![M, K]⟩) (r : Fin M) (k : Fin K) :
    broadcastTo ⟨2, ![M, K]⟩ (shapeCast ⟨2, ![1, K]⟩ x h1) h2 (ix2 r k) = x (ix1 k) := by
  rw [broadcastTo_1b_ab_apply]
  exact shapeCast_apply x h1 _ _ (by
    rw [Shape.rowMajor_val_two, Shape.rowMajor_val_one]
    show k.val = 0 * K + k.val
    omega)

/-- So a vector laid along every row is one array in the two spellings. -/
theorem kernelRows_eq_hostRows (x : (⟨1, ![K]⟩ : Shape).Idx → α)
    (h1 : (⟨1, ![K]⟩ : Shape).ShapeCasts ⟨2, ![1, K]⟩) (h2 : (⟨2, ![1, K]⟩ : Shape).Broadcasts ⟨2, ![M, K]⟩)
    (g1 : (⟨1, ![K]⟩ : Shape).BroadcastsInDim ⟨2, ![1, K]⟩ ![1])
    (g2 : (⟨2, ![1, K]⟩ : Shape).BroadcastsInDim ⟨2, ![M, K]⟩ ![0, 1]) :
    broadcastTo ⟨2, ![M, K]⟩ (shapeCast ⟨2, ![1, K]⟩ x h1) h2
      = broadcastInDim ⟨2, ![M, K]⟩ ![0, 1] g2 (broadcastInDim ⟨2, ![1, K]⟩ ![1] g1 x) := by
  funext i
  obtain ⟨r, k, rfl⟩ : ∃ (r : Fin M) (k : Fin K), i = ix2 r k := ⟨i 0, i 1, eq_ix2 i⟩
  rw [kernelRows_apply, hostRows_apply]

end Layout

/-! ## The row log-softmax in the two spellings -/

section LogSoftmax
variable {M K : ℕ}

/-- A block's entries minus their row's maximum, in the kernel's spelling: a lane maximum from −∞, one more maximum
    against a −∞ splat, the result kept as a column and broadcast along the rows. -/
def blockShift (z : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, K]⟩) :
    FVec Ideal ⟨2, ![M, K]⟩ .f32 :=
  subf z (broadcastTo ⟨2, ![M, K]⟩ (shapeCast ⟨2, ![M, 1]⟩
    (maximumf (broadcast (⟨1, ![M]⟩ : Shape) (Scalar.ofBits (F := Ideal) .f32 0xFF800000#32))
      (multiReduction .maximumf [1] (⟨1, ![M]⟩ : Shape) z 0xFF800000#32 h hφ hmax)) hc) hb)

/-- The row log-softmax in the kernel's spelling: the shifted entries minus the logarithm, taken on a column and
    broadcast along the rows, of the lane sum from zero of their exponentials. -/
def blockLogSoftmax (z : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    FVec Ideal ⟨2, ![M, K]⟩ .f32 :=
  subf (blockShift z h hφ hmax hc hb) (broadcastTo ⟨2, ![M, K]⟩ (log (shapeCast ⟨2, ![M, 1]⟩
    (multiReduction .add [1] (⟨1, ![M]⟩ : Shape) (exp (blockShift z h hφ hmax hc hb)) 0x00000000#32 h hφ hadd) hc)) hb)

/-- The shift is one array in the two spellings: at entry (r, k) both subtract max(−∞, the maximum of row r). -/
theorem blockShift_eq_host (z : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, K]⟩)
    (h' : (⟨2, ![M, K]⟩ : Shape).ReducesTo [1] (⟨1, ![M]⟩ : Shape)) (hu : 0 < (⟨0, ![]⟩ : Shape).numel)
    (g0 : (⟨0, ![]⟩ : Shape).BroadcastsInDim ⟨1, ![M]⟩ ![])
    (g1 : (⟨1, ![M]⟩ : Shape).BroadcastsInDim ⟨2, ![M, 1]⟩ ![0])
    (g2 : (⟨2, ![M, 1]⟩ : Shape).BroadcastsInDim ⟨2, ![M, K]⟩ ![0, 1]) :
    blockShift z h hφ hmax hc hb
      = subf z (broadcastInDim ⟨2, ![M, K]⟩ ![0, 1] g2 (broadcastInDim ⟨2, ![M, 1]⟩ ![0] g1
          (maximumf (broadcastInDim (⟨1, ![M]⟩ : Shape) ![] g0 (constant (F := Ideal) (⟨0, ![]⟩ : Shape) .f32 0xFF800000#32))
            (Host.reduce FloatOps.maximumf z (constant (F := Ideal) (⟨0, ![]⟩ : Shape) .f32 0xFF800000#32) h' hu)))) := by
  unfold blockShift
  refine congrArg (subf z) ?_
  funext i
  obtain ⟨r, k, rfl⟩ : ∃ (r : Fin M) (k : Fin K), i = ix2 r k := ⟨i 0, i 1, eq_ix2 i⟩
  rw [Cert.Softmax.alongRow_apply, Cert.Softmax.column_apply, hostAlongRow_apply, hostColumn_apply,
    maximumf_apply, maximumf_apply, Cert.Softmax.laneMax_apply, Cert.Softmax.hostRowMax_apply z h' h hu r]
  rfl

/-- The logarithm of the row sum, kept as a column and broadcast along the rows, is one array in the two spellings:
    the lane sum from zero is the host's sum from the initial value zero. -/
theorem blockLogSum_eq_host (s : FVec Ideal ⟨2, ![M, K]⟩ .f32) (h : (⟨2, ![M, K]⟩ : Shape).Reduces [1] (⟨1, ![M]⟩ : Shape))
    (hφ : FKind.Formats .f32) (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩)
    (h' : (⟨2, ![M, K]⟩ : Shape).ReducesTo [1] (⟨1, ![M]⟩ : Shape)) (hu : 0 < (⟨0, ![]⟩ : Shape).numel)
    (g1 : (⟨1, ![M]⟩ : Shape).BroadcastsInDim ⟨2, ![M, 1]⟩ ![0])
    (g2 : (⟨2, ![M, 1]⟩ : Shape).BroadcastsInDim ⟨2, ![M, K]⟩ ![0, 1]) :
    broadcastTo ⟨2, ![M, K]⟩ (log (shapeCast ⟨2, ![M, 1]⟩
        (multiReduction .add [1] (⟨1, ![M]⟩ : Shape) (exp s) 0x00000000#32 h hφ hadd) hc)) hb
      = broadcastInDim ⟨2, ![M, K]⟩ ![0, 1] g2 (Host.log (broadcastInDim ⟨2, ![M, 1]⟩ ![0] g1
          (Host.reduceAdd (Host.exp s) (constant (F := Ideal) (⟨0, ![]⟩ : Shape) .f32 0x00000000#32) h' hu))) := by
  have hsum : multiReduction .add [1] (⟨1, ![M]⟩ : Shape) (exp s) 0x00000000#32 h hφ hadd
      = Host.reduceAdd (Host.exp s) (constant (F := Ideal) (⟨0, ![]⟩ : Shape) .f32 0x00000000#32) h' hu :=
    multiReduction_add_eq_hostReduceAdd (exp s) 0x00000000#32 h hφ hadd
      (constant (F := Ideal) (⟨0, ![]⟩ : Shape) .f32 0x00000000#32) h' hu Ideal.ofBits_zero_f32
  funext i
  obtain ⟨r, k, rfl⟩ : ∃ (r : Fin M) (k : Fin K), i = ix2 r k := ⟨i 0, i 1, eq_ix2 i⟩
  rw [Cert.Softmax.alongRow_apply, hostAlongRow_apply]
  show Ideal.log (shapeCast ⟨2, ![M, 1]⟩ (multiReduction .add [1] (⟨1, ![M]⟩ : Shape) (exp s) 0x00000000#32 h hφ hadd) hc
      (ix2 r (0 : Fin 1)))
    = Ideal.log (broadcastInDim ⟨2, ![M, 1]⟩ ![0] g1
      (Host.reduceAdd (Host.exp s) (constant (F := Ideal) (⟨0, ![]⟩ : Shape) .f32 0x00000000#32) h' hu) (ix2 r (0 : Fin 1)))
  rw [Cert.Softmax.column_apply, hostColumn_apply, hsum]

/-- The row log-softmax is one array in the two spellings. -/
theorem blockLogSoftmax_eq_host (z : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩)
    (h' : (⟨2, ![M, K]⟩ : Shape).ReducesTo [1] (⟨1, ![M]⟩ : Shape)) (hu : 0 < (⟨0, ![]⟩ : Shape).numel)
    (g0 : (⟨0, ![]⟩ : Shape).BroadcastsInDim ⟨1, ![M]⟩ ![])
    (g1 : (⟨1, ![M]⟩ : Shape).BroadcastsInDim ⟨2, ![M, 1]⟩ ![0])
    (g2 : (⟨2, ![M, 1]⟩ : Shape).BroadcastsInDim ⟨2, ![M, K]⟩ ![0, 1]) :
    blockLogSoftmax z h hφ hmax hadd hc hb
      = subf
          (subf z (broadcastInDim ⟨2, ![M, K]⟩ ![0, 1] g2 (broadcastInDim ⟨2, ![M, 1]⟩ ![0] g1
            (maximumf (broadcastInDim (⟨1, ![M]⟩ : Shape) ![] g0 (constant (F := Ideal) (⟨0, ![]⟩ : Shape) .f32 0xFF800000#32))
              (Host.reduce FloatOps.maximumf z (constant (F := Ideal) (⟨0, ![]⟩ : Shape) .f32 0xFF800000#32) h' hu)))))
          (broadcastInDim ⟨2, ![M, K]⟩ ![0, 1] g2 (Host.log (broadcastInDim ⟨2, ![M, 1]⟩ ![0] g1
            (Host.reduceAdd
              (Host.exp (subf z (broadcastInDim ⟨2, ![M, K]⟩ ![0, 1] g2 (broadcastInDim ⟨2, ![M, 1]⟩ ![0] g1
                (maximumf (broadcastInDim (⟨1, ![M]⟩ : Shape) ![] g0 (constant (F := Ideal) (⟨0, ![]⟩ : Shape) .f32 0xFF800000#32))
                  (Host.reduce FloatOps.maximumf z (constant (F := Ideal) (⟨0, ![]⟩ : Shape) .f32 0xFF800000#32) h' hu))))))
              (constant (F := Ideal) (⟨0, ![]⟩ : Shape) .f32 0x00000000#32) h' hu)))) := by
  unfold blockLogSoftmax
  rw [blockShift_eq_host z h hφ hmax hc hb h' hu g0 g1 g2, blockLogSum_eq_host _ h hφ hadd hc hb h' hu g1 g2]

end LogSoftmax

end Cert.LogSoftmax

end
-- ==== Proof.Classifier.lean ====
/-
  The classifier head of the kernel program, as an array.

  The second kernel of the program runs at one grid point, every block being its whole array. It loads the pooled
  features p [128, 128], the weights W1 [128, 128], b1 [128], W2 [128, 2], b2 [2], and stores the row log-softmax of
  the logits max(p · W1 + b1, 0) · W2 + b2. The reference computes the same function with host operations, named
  `head`. Operation by operation the two spellings are one array:
    * a product accumulated into a zero splat is the product (0 + s = s);
    * a bias vector cast to one row and broadcast down the rows is the vector laid along every row, which the host
      writes as two broadcasts (to one row, then down the rows);
    * a splat of the zero word is the host's broadcast of the zero constant;
    * the row maximum, a lane reduction from −∞ followed by one more maximum against a −∞ splat, kept as a column and
      broadcast along the rows, is the host's reduction with a maximum body from −∞, the same further maximum, and two
      broadcasts (to a column, then along the rows): both read max(−∞, max_j z(r, j)) at entry (r, k);
    * the row sum of exponentials, a lane sum from zero, is the host's sum from the initial value zero; its logarithm
      is taken on the column and broadcast along the rows in both.
  Nothing is cancelled or distributed, so every step holds at the infinities too, with no finiteness hypothesis.
  With one grid point each input block is its whole array and the one stored block covers the output array, so the
  output array after the region is that function of the five input arrays as the region finds them.
-/
import proofs.«142767_j1219770712147_1_alg».proof.Proof.Gen.KernelIdeal.Frame
import proofs.«142767_j1219770712147_1_alg».proof.Proof.Stages
import proofs.«142767_j1219770712147_1_alg».proof.Proof.LibLogSoftmax
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Bridge

open Idealize.ShloMosaic Idealize.ShloMosaic.ValueIdx Idealize.ShloMosaic.TcCoe Idealize.SL.Sem
open Cert.LogSoftmax
open scoped BigOperators

/-! ## The kernel body's arithmetic is the head -/

section Payload
open Cert.KernelIdeal Cert.KernelIdeal.Gen

/-- The logits max(p · W1 + b1, 0) · W2 + b2 in the kernel's spelling: each product accumulated into a zero splat, each
    bias cast to one row and broadcast down the rows, the positive part a maximum with a zero splat. -/
def kernelLogits (p w1 : FVec Ideal S128x128 .f32) (b1 : FVec Ideal S128 .f32) (w2 : FVec Ideal S128x2 .f32)
    (b2 : FVec Ideal S2 .f32) : FVec Ideal S128x2 .f32 :=
  addf
    (matmul dot_S128x128_S128x2_S128x2_1_0_0_1_n_n none
      (maximumf
        (addf
          (matmul dot_S128x128_S128x128_S128x128_1_0_0_1_n_n none (shapeCast S128x128 p shapeCasts_S128x128_S128x128) w1
            (constant (F := Ideal) S128x128 .f32 0x00000000#32))
          (broadcastTo S128x128 (shapeCast S1x128 b1 shapeCasts_S128_S1x128) broadcasts_S1x128_S128x128))
        (broadcast S128x128 (Scalar.ofBits (F := Ideal) .f32 0x00000000#32)))
      w2 (constant (F := Ideal) S128x2 .f32 0x00000000#32))
    (broadcastTo S128x2 (shapeCast S1x2 b2 shapeCasts_S2_S1x2) broadcasts_S1x2_S128x2)

/-- The kernel's logits are the host's: 0 + s = s in each product, the bias laid along every row, the zero splat. -/
theorem kernelLogits_eq (p w1 : FVec Ideal S128x128 .f32) (b1 : FVec Ideal S128 .f32) (w2 : FVec Ideal S128x2 .f32)
    (b2 : FVec Ideal S2 .f32) : kernelLogits p w1 b1 w2 b2 = logits (F := Ideal) p w1 b1 w2 b2 := by
  unfold kernelLogits logits Cert.ReferenceIdeal.ReadP.val_main_v69 Cert.ReferenceIdeal.ReadP.val_main_v68
    Cert.ReferenceIdeal.ReadP.val_main_v74 Cert.ReferenceIdeal.ReadP.val_main_v73
    Cert.ReferenceIdeal.ReadP.val_main_call2_v0 Cert.ReferenceIdeal.ReadP.val_main_call2_cst
  rw [shapeCast_self, matmul_zero_eq_dotGeneral, matmul_zero_eq_dotGeneral,
    kernelRows_eq_hostRows b1 shapeCasts_S128_S1x128 broadcasts_S1x128_S128x128
      Cert.ReferenceIdeal.Gen.bcast_S128_S1x128_1 Cert.ReferenceIdeal.Gen.bcast_S1x128_S128x128_0_1,
    kernelRows_eq_hostRows b2 shapeCasts_S2_S1x2 broadcasts_S1x2_S128x2
      Cert.ReferenceIdeal.Gen.bcast_S2_S1x2_1 Cert.ReferenceIdeal.Gen.bcast_S1x2_S128x2_0_1,
    ← broadcastInDim_constant (F := Ideal) (s := (⟨0, ![]⟩ : Shape)) (φ := .f32) ![] Cert.ReferenceIdeal.Gen.bcast_S_S128x128 0x00000000#32]
  rfl

/-- The body's arithmetic, one pure term of the five loaded blocks, is the log-softmax spelling of the logits spelling. -/
theorem k1_pay1_eq (p w1 : FVec Ideal S128x128 .f32) (b1 : FVec Ideal S128 .f32) (w2 : FVec Ideal S128x2 .f32)
    (b2 : FVec Ideal S2 .f32) :
    k1_pay1 (F := Ideal) p w1 b1 w2 b2
      = blockLogSoftmax (kernelLogits p w1 b1 w2 b2) reduces_S128x2_S128 (.inl rfl) rfl rfl
          shapeCasts_S128_S128x1 broadcasts_S128x1_S128x2 := rfl

/-- The host's row log-softmax, unfolded to its operations. -/
theorem logSoftmax_eq (z : FVec Ideal S128x2 .f32) :
    blockLogSoftmax z reduces_S128x2_S128 (.inl rfl) rfl rfl shapeCasts_S128_S128x1 broadcasts_S128x1_S128x2
      = logSoftmax (F := Ideal) z := by
  unfold logSoftmax shifted Cert.ReferenceIdeal.ReadP.val_main_call3_v1 Cert.ReferenceIdeal.ReadP.val_main_call3_cst_0
    Cert.ReferenceIdeal.ReadP.val_main_call3_cst Cert.ReferenceIdeal.ReadP.val_main_call3_cst_1
  exact blockLogSoftmax_eq_host z reduces_S128x2_S128 (.inl rfl) rfl rfl shapeCasts_S128_S128x1 broadcasts_S128x1_S128x2
    Cert.ReferenceIdeal.Gen.reducesTo_S128x2_S128_d1 Cert.ReferenceIdeal.Gen.h_S_ Cert.ReferenceIdeal.Gen.bcast_S_S128
    Cert.ReferenceIdeal.Gen.bcast_S128_S128x1_0 Cert.ReferenceIdeal.Gen.bcast_S128x1_S128x2_0_1

/-- The body's arithmetic on five blocks is the head of those blocks. -/
theorem payload_eq (p w1 : FVec Ideal S128x128 .f32) (b1 : FVec Ideal S128 .f32) (w2 : FVec Ideal S128x2 .f32)
    (b2 : FVec Ideal S2 .f32) : k1_pay1 (F := Ideal) p w1 b1 w2 b2 = head (F := Ideal) p w1 b1 w2 b2 := by
  rw [k1_pay1_eq, logSoftmax_eq, kernelLogits_eq]
  rfl

theorem zeros2 : (![0, 0] : Fin 2 → Nat) = fun _ => 0 := funext fun a => by fin_cases a <;> rfl
theorem zeros1 : (![0] : Fin 1 → Nat) = fun _ => 0 := funext fun a => by fin_cases a <;> rfl

/-- What the body leaves in the output block — its one store, through the whole block, of the arithmetic of its five
    loads, each through its whole block — is the head of the five input blocks. -/
theorem out_eq (x0 x1 : FVec Ideal S128x128 .f32) (x2 : FVec Ideal S128 .f32) (x3 : FVec Ideal S128x2 .f32)
    (x4 : FVec Ideal S2 .f32) : out1_5 (F := Ideal) x0 x1 x2 x3 x4 = head (F := Ideal) x0 x1 x2 x3 x4 := by
  unfold out1_5
  rw [View.canon_unit_zero zeros2]
  simp only [View.ld_unit_zero (S := S128x128) zeros2, View.ld_unit_zero (S := S128) zeros1,
    View.ld_unit_zero (S := S128x2) zeros2, View.ld_unit_zero (S := S2) zeros1]
  exact payload_eq x0 x1 x2 x3 x4

end Payload

/-! ## From the one block to the array -/

section Region
open Cert.KernelIdeal Cert.KernelIdeal.Gen
open Idealize.ShloMosaic.Pipeline (Dat)

variable (V : (c : Dev nD) → (b : Ref sig .tc) → Buf (Elt Ideal) ((c : Thread nD τ).loc b)) (c : Dev nD)

/-- At the grid's one point every window's block index is zero on every axis. -/
theorem index0_0 : (fun a => win1_0.index t1_0 a * main_v66.ty.shape.size a) = fun _ => 0 :=
  funext fun a => by fin_cases a <;> decide
theorem index0_1 : (fun a => win1_1.index t1_0 a * main_arg5.ty.shape.size a) = fun _ => 0 :=
  funext fun a => by fin_cases a <;> decide
theorem index0_2 : (fun a => win1_2.index t1_0 a * main_arg6.ty.shape.size a) = fun _ => 0 :=
  funext fun a => by fin_cases a <;> decide
theorem index0_3 : (fun a => win1_3.index t1_0 a * main_arg7.ty.shape.size a) = fun _ => 0 :=
  funext fun a => by fin_cases a <;> decide
theorem index0_4 : (fun a => win1_4.index t1_0 a * main_arg8.ty.shape.size a) = fun _ => 0 :=
  funext fun a => by fin_cases a <;> decide
theorem index0_5 : (fun a => win1_5.index t1_0 a * main_v67.ty.shape.size a) = fun _ => 0 :=
  funext fun a => by fin_cases a <;> decide

/-- So each input window's block there is its whole array, as the region finds it. -/
theorem iblk_0 : iblk1 (F := Ideal) V c 0 t1_0 = V c main_v66 :=
  Memref.read_access_unit_zero (Elt Ideal) main_v66 index0_0 (fun a => by rw [congrFun index0_0 a]; simp) (V c main_v66)
theorem iblk_1 : iblk1 (F := Ideal) V c 1 t1_0 = V c main_arg5 :=
  Memref.read_access_unit_zero (Elt Ideal) main_arg5 index0_1 (fun a => by rw [congrFun index0_1 a]; simp) (V c main_arg5)
theorem iblk_2 : iblk1 (F := Ideal) V c 2 t1_0 = V c main_arg6 :=
  Memref.read_access_unit_zero (Elt Ideal) main_arg6 index0_2 (fun a => by rw [congrFun index0_2 a]; simp) (V c main_arg6)
theorem iblk_3 : iblk1 (F := Ideal) V c 3 t1_0 = V c main_arg7 :=
  Memref.read_access_unit_zero (Elt Ideal) main_arg7 index0_3 (fun a => by rw [congrFun index0_3 a]; simp) (V c main_arg7)
theorem iblk_4 : iblk1 (F := Ideal) V c 4 t1_0 = V c main_arg8 :=
  Memref.read_access_unit_zero (Elt Ideal) main_arg8 index0_4 (fun a => by rw [congrFun index0_4 a]; simp) (V c main_arg8)

/-- The head of the five input arrays as the region finds them, as contents of the output array. -/
abbrev headOf : Buf (Elt Ideal) ((c : Thread nD τ).loc main_v67) :=
  head (F := Ideal) (V c main_v66) (V c main_arg5) (V c main_arg6) (V c main_arg7) (V c main_arg8)

/-- What the one point writes back is the whole of that array. -/
theorem head_flushed_eq (t : Fin cfg1.N) :
    (dat1 (F := Ideal) V c).flushed 5 t = ((cfg1.win 5).blk t).view.read (Elt Ideal) (headOf V c) := by
  obtain rfl : t = t1_0 := fin_N1 t
  show (cfg1.win 5).cut (grid1.coords t1_0) ((dat1 (F := Ideal) V c).after 5 t1_0) = _
  rw [after1_5]
  have e := out_eq (iblk1 (F := Ideal) V c 0 t1_0) (iblk1 (F := Ideal) V c 1 t1_0) (iblk1 (F := Ideal) V c 2 t1_0)
    (iblk1 (F := Ideal) V c 3 t1_0) (iblk1 (F := Ideal) V c 4 t1_0)
  rw [e, iblk_0 V c, iblk_1 V c, iblk_2 V c, iblk_3 V c, iblk_4 V c]
  exact (Memref.read_access_unit_zero (Elt Ideal) main_v67 index0_5 (fun a => by rw [congrFun index0_5 a]; simp)
    (headOf V c)).symm

/-- The one point's block covers the output array. -/
theorem covered (i : ((cfg1.win 5).arr.view.loc (c.tc : Thread nD τ)).2.ty.Idx) :
    ∃ t : Fin cfg1.N, (cfg1.win 5).flush t = true ∧ i ∈ ((cfg1.win 5).blk t).view.set := by
  refine ⟨t1_0, flush1_5 t1_0, ?_⟩
  show i ∈ ((View.whole main_v67).slice (win1_5.rect t1_0)).set
  rw [View.set_slice_whole, Rect.mem_set_unit]
  intro a
  have h0 : (i 0 : Nat) < 128 := (i 0).isLt
  have h1 : (i 1 : Nat) < 2 := (i 1).isLt
  match a with
  | ⟨0, _⟩ =>
    show win1_5.index t1_0 0 * win1_5.size 0 ≤ (i 0 : Nat)
      ∧ (i 0 : Nat) < win1_5.index t1_0 0 * win1_5.size 0 + win1_5.xsize (grid1.coords t1_0) 0
    rw [show win1_5.index t1_0 0 * win1_5.size 0 = 0 from by decide +kernel,
      show win1_5.xsize (grid1.coords t1_0) 0 = 128 from by decide +kernel]
    omega
  | ⟨1, _⟩ =>
    show win1_5.index t1_0 1 * win1_5.size 1 ≤ (i 1 : Nat)
      ∧ (i 1 : Nat) < win1_5.index t1_0 1 * win1_5.size 1 + win1_5.xsize (grid1.coords t1_0) 1
    rw [show win1_5.index t1_0 1 * win1_5.size 1 = 0 from by decide +kernel,
      show win1_5.xsize (grid1.coords t1_0) 1 = 2 from by decide +kernel]
    omega

end Region

/-- THE REGION'S OUTPUT ARRAY, for any entry contents, is the head of the five input arrays of those contents. -/
theorem classifier_array
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat1 (F := Ideal) V c).arrAt 5 Cert.KernelIdeal.cfg1.N
      = Cert.Bridge.head (F := Ideal) (V c Cert.KernelIdeal.main_v66) (V c Cert.KernelIdeal.main_arg5)
          (V c Cert.KernelIdeal.main_arg6) (V c Cert.KernelIdeal.main_arg7) (V c Cert.KernelIdeal.main_arg8) :=
  (Cert.KernelIdeal.Gen.dat1 (F := Ideal) V c).arrAt_eq_of_cover 5 (headOf V c) (fun t _ => head_flushed_eq V c t) (covered c)

end Cert.Bridge

end
-- ==== Proof.Result.lean ====
/-
  The idealized kernel program's result buffer holds the reference's result function of the nine launch arrays.

  Reading backwards from the end of the run: the result buffer is the classifier region's output array, which is
  `head` of what that region found — the pooled features and four weight arrays as launched. The pooled features it
  found are `pool` of the projection region's output array and three arguments as launched. The projection region's
  output array is x · W_gcn of the launch arrays, the same sums over the contracted coordinate that the reference's
  one matrix product takes. So the result is head (pool (x · W_gcn)), which is the reference's last stage by
  unfolding its names. No step cancels or distributes, so none needs the inputs finite.
-/
import proofs.«142767_j1219770712147_1_alg».proof.Proof.KernelRun
import proofs.«142767_j1219770712147_1_alg».proof.Proof.Glue
import proofs.«142767_j1219770712147_1_alg».proof.Proof.Projection
import proofs.«142767_j1219770712147_1_alg».proof.Proof.Classifier

noncomputable section

namespace Cert.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the projection region's exit its output array is the reference's projection of the launch arrays. -/
theorem projection_at_exit0 (c : Dev nD) :
    W1 m ρ c (Proc.devRef .tc main_v0)
      = Cert.ReferenceIdeal.ReadP.val_main_v37 (F := Ideal) (m ((c : Thread nD τ).loc main_arg0)) (m ((c : Thread nD τ).loc main_arg3)) :=
  (W1_arr m ρ c 2).trans (projection_array (V0 m ρ) c)

/-- The result buffer at the last boundary is the reference's last stage of the nine launch arrays. -/
theorem result_at_end (c : Dev nD) :
    W7 m ρ c (Proc.devRef .tc main_v67)
      = Cert.ReferenceIdeal.ReadP.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [stage_result, stage_pooled]
  refine (W7_arr m ρ c 5).trans ((classifier_array (V6 m ρ) c).trans ?_)
  rw [Glue.pooled_at_entry1, Glue.entry1_arg5, Glue.entry1_arg6, Glue.entry1_arg7, Glue.entry1_arg8,
    projection_at_exit0, Glue.exit0_arg1, Glue.exit0_arg2, Glue.exit0_arg4]

end Cert.Bridge

end
-- ==== Proof.lean ====
/-
  A graph-convolution classifier: the Pallas program against its jnp reference, equal at the ideal values.

  Both programs take node features x [50000, 768], an edge list [2, 500000], a graph id per node, and the weights
  W_gcn, b_gcn, W1, b1, W2, b2, and return log_softmax(max(pooled · W1 + b1, 0) · W2 + b2) [128, 2], where pooled is
  the per-graph mean of max(Â (x · W_gcn) + b_gcn, 0) and Â is the edge list's adjacency with self loops, scaled
  symmetrically by the degrees. The kernel program computes x · W_gcn in a first region, 25 tiles of 2000 rows each a
  product accumulated into zero (its operands narrowed to bf16 first, which is the identity at the ideal values), runs
  the graph layer and the mean as host operations, and computes the classifier head in a second region of one grid
  point. The reference computes all three steps as host operations. At the ideal values:
    * a tile's product entry (p, q) is the sum over k of x(2000 t + p, k) · W_gcn(k, q), which is the reference's
      product entry at row 2000 t + p, and the 25 tiles cover the rows: the first region's output IS the reference's
      projection (Proof/Projection.lean);
    * the host operations between the regions are the reference's own, so equal projections give equal pooled
      features: they are carried as one function `pool`, never opened (Proof/Stages.lean, Proof/Glue.lean);
    * each operation of the second region's body is the reference's host operation as a whole array — a product into a
      zero accumulator against a product with none, a lane maximum from −∞ and a lane sum from 0 against the host's
      reductions, a bias cast to a row and broadcast down against the host's broadcast along axis 1
      (Proof/Classifier.lean).
  Only 0 + s = s is used of real arithmetic, so nothing needs the inputs finite: the precondition is never opened.
  The ideal pass rewrote no operation, so `preserves` asks nothing. The kernel program's run with its result named is
  Proof/KernelRun.lean; the reference's run is the generated one, through a patched copy (Proof/RunP.lean).
-/
import proofs.«142767_j1219770712147_1_alg».proof.Defs
import proofs.«142767_j1219770712147_1_alg».proof.Proof.Gen.Kernel
import proofs.«142767_j1219770712147_1_alg».proof.Proof.Gen.Kernel.Skeleton
import proofs.«142767_j1219770712147_1_alg».proof.Proof.Gen.Kernel.Launch
import proofs.«142767_j1219770712147_1_alg».proof.Proof.Gen.Kernel.Points
import proofs.«142767_j1219770712147_1_alg».proof.Proof.Gen.Kernel.Frame
import proofs.«142767_j1219770712147_1_alg».proof.Proof.Gen.KernelIdeal
import proofs.«142767_j1219770712147_1_alg».proof.Proof.Gen.KernelIdeal.Skeleton
import proofs.«142767_j1219770712147_1_alg».proof.Proof.Gen.KernelIdeal.Launch
import proofs.«142767_j1219770712147_1_alg».proof.Proof.Gen.KernelIdeal.Points
import proofs.«142767_j1219770712147_1_alg».proof.Proof.Gen.KernelIdeal.Frame
import proofs.«142767_j1219770712147_1_alg».proof.Proof.Gen.ReferenceIdeal
import proofs.«142767_j1219770712147_1_alg».proof.Proof.Gen.Pre_finite_inputs
import proofs.«142767_j1219770712147_1_alg».proof.Proof.Result
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the nine arguments, both programs end with the result buffer at the reference's last
    stage of those arguments: the kernel program by `Cert.Bridge.result_at_end`, the reference by its run. -/
theorem algebraic : Cert.algebraic_KernelIdeal_ReferenceIdeal := by
  intro m ρ m' ρ' _ hagree
  refine ⟨fun c => Cert.ReferenceIdeal.ReadP.val_main_v76 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.result_at_end m ρ c), (h c).2⟩)
      (Cert.Bridge.KernelRun.run (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v76_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
